-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel

variable [Facts]

def fn {F : FTy → Type} [FloatOps F] (main_arg0 : FVec F S32x1x1024x1024 .f32) (main_arg1 : FVec F S32x1x1024x1024 .f32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  let main_v4 : FVec F S32x1x1024x1024 .f32 := Host.absf main_arg1
  let main_cst_0 : FVec F S_ .f32 := constant S_ .f32 0x7F800000#32
  let main_v5 : FVec F S32x1x1024x1024 .f32 := broadcastInDim S32x1x1024x1024 ![] bcast_S_S32x1x1024x1024 main_cst_0
  let main_v6 : IVec S32x1x1024x1024 1 := cmpf .olt main_v4 main_v5
  let main_c_1 : IVec S_ 1 := constantI S_ 1 1#1
  let main_v7 : IVec S_ 1 := (fun x v => Host.reduce IntOp.andi x v reducesTo_S32x1x1024x1024_S_d0_1_2_3 h_S_) main_v6 main_c_1
  let main_v8 : IVec S_ 1 := andi main_v3 main_v7
  main_v8
-- ==== Kernel.lean ====
abbrev S32x1x1024x1024 : Shape := ⟨4, ![32, 1, 1024, 1024]⟩
abbrev S32x1x128 : Shape := ⟨3, ![32, 1, 128]⟩
abbrev S16x1x128x1024 : Shape := ⟨4, ![16, 1, 128, 1024]⟩
abbrev S16x1x128 : Shape := ⟨3, ![16, 1, 128]⟩
abbrev S16x1 : Shape := ⟨2, ![16, 1]⟩
abbrev S16x128x1024 : Shape := ⟨3, ![16, 128, 1024]⟩
abbrev S16x1024 : Shape := ⟨2, ![16, 1024]⟩
abbrev S16x128 : Shape := ⟨2, ![16, 128]⟩
abbrev S16 : Shape := ⟨1, ![16]⟩
abbrev S16x1x1 : Shape := ⟨3, ![16, 1, 1]⟩
abbrev S32x1x1 : Shape := ⟨3, ![32, 1, 1]⟩
abbrev S32 : Shape := ⟨1, ![32]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .hbm, ⟨2, _⟩ => ⟨S32x1x128, .f32⟩
  | .hbm, ⟨3, _⟩ => ⟨S32x1x1, .f32⟩
  | .hbm, ⟨4, _⟩ => ⟨S32, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S16x1x128x1024, .f32⟩
  | .local _ .vmem, ⟨1, _⟩ => ⟨S16x1x128x1024, .f32⟩
  | .local _ .vmem, ⟨2, _⟩ => ⟨S16x1x128x1024, .f32⟩
  | .local _ .vmem, ⟨3, _⟩ => ⟨S16x1x128x1024, .f32⟩
  | .local _ .vmem, ⟨4, _⟩ => ⟨S16x1x128, .f32⟩
  | .local _ .vmem, ⟨5, _⟩ => ⟨S16x1x128, .f32⟩
  | .local _ .vmem, ⟨6, _⟩ => ⟨S16x1, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v73 : BitVec 1 := Scalar.cmpi .eq arg1 c7_i32
  let v74 : BitVec 32 := Scalar.extui v73
  let c0_i32_30 : BitVec 32 := 0#32
  let v75 : BitVec 1 := Scalar.cmpi .ne v74 c0_i32_30
  v75

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S16x1x128x1024_S16x1x128x1024_0_0_0_0 : ∀ a, (![0, 0, 0, 0] : Fin 4 → Nat) a + S16x1x128x1024.size a ≤ S16x1x128x1024.size a
  h_S16x1x128x1024 : 0 < S16x1x128x1024.numel
  shapeCasts_S16x1x128x1024_S16x128x1024 : S16x1x128x1024.ShapeCasts S16x128x1024
  reduces_S16x128x1024_S16x1024 : S16x128x1024.Reduces [1] S16x1024
  slices_S16x1024_o0_0_S16x128 : S16x1024.Slices ![0, 0] S16x128
  reduces_S16x128_S16 : S16x128.Reduces [1] S16
  shapeCasts_S16_S16x1 : S16.ShapeCasts S16x1
  slices_S16x1024_o0_128_S16x128 : S16x1024.Slices ![0, 128] S16x128
  slices_S16x1024_o0_256_S16x128 : S16x1024.Slices ![0, 256] S16x128
  slices_S16x1024_o0_384_S16x128 : S16x1024.Slices ![0, 384] S16x128
  slices_S16x1024_o0_512_S16x128 : S16x1024.Slices ![0, 512] S16x128
  slices_S16x1024_o0_640_S16x128 : S16x1024.Slices ![0, 640] S16x128
  slices_S16x1024_o0_768_S16x128 : S16x1024.Slices ![0, 768] S16x128
  slices_S16x1024_o0_896_S16x128 : S16x1024.Slices ![0, 896] S16x128
  inb_S16x1_S16x1_0_0 : ∀ a, (![0, 0] : Fin 2 → Nat) a + S16x1.size a ≤ S16x1.size a
  h_S16x1 : 0 < S16x1.numel
  shapeCasts_S16x1_S16x1 : S16x1.ShapeCasts S16x1
  shapeCasts_S16x1_S16x1x1 : S16x1.ShapeCasts S16x1x1
  shapeCasts_S16x1x1_S16x1x1 : S16x1x1.ShapeCasts S16x1x1
  broadcasts_S16x1x1_S16x1x128 : S16x1x1.Broadcasts S16x1x128
  inb_S16x1x128_S16x1x128_0_0_0 : ∀ a, (![0, 0, 0] : Fin 3 → Nat) a + S16x1x128.size a ≤ S16x1x128.size a
  h_S16x1x128 : 0 < S16x1x128.numel
  slices_S32x1x128_S32x1x1_0_0_0 : S32x1x128.Slices ![0, 0, 0] S32x1x1
  shapeCasts_S32x1x1_S32 : S32x1x1.ShapeCasts S32
  reducesTo_S32_S_d0 : S32.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1x128x1024.size a ≤ S32x1x1024x1024.size a
  hwx0_0 : ∀ i : grid0.Coords, EltTy.bits .f32 = 32 ∨ (Rect.block (s := S32x1x1024x1024) S16x1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1x128x1024.size a ≤ S32x1x1024x1024.size a
  hwx0_1 : ∀ i : grid0.Coords, EltTy.bits .f32 = 32 ∨ (Rect.block (s := S32x1x1024x1024) S16x1x128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1x128.size a ≤ S32x1x128.size a
  hwx0_2 : ∀ i : grid0.Coords, EltTy.bits .f32 = 32 ∨ (Rect.block (s := S32x1x128) S16x1x128.size (cc0_transform_2 i) (hinb0_2 i)).WholeWords (EltTy.packing .f32)

variable [Facts₀]

abbrev win0_0 : Pipeline.Window sig grid0 :=
  Pipeline.Window.ofSpec (Memref.whole main_arg0) S16x1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x1x1024x1024 : Shape := ⟨4, ![32, 1, 1024, 1024]⟩
abbrev S32x1x8x128x8x128 : Shape := ⟨6, ![32, 1, 8, 128, 8, 128]⟩
abbrev S_ : Shape := ⟨0, ![]⟩
abbrev S32x1x8x8 : Shape := ⟨4, ![32, 1, 8, 8]⟩
abbrev S32 : Shape := ⟨1, ![32]⟩

abbrev nBuf : Space → Nat
  | .hbm => 22
  | .vmem => 0
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .hbm, ⟨2, _⟩ => ⟨S32x1x8x128x8x128, .f32⟩
  | .hbm, ⟨3, _⟩ => ⟨S_, .f32⟩
  | .hbm, ⟨4, _⟩ => ⟨S32x1x8x8, .f32⟩
  | .hbm, ⟨5, _⟩ => ⟨S_, .f32⟩
  | .hbm, ⟨6, _⟩ => ⟨S32x1x8x8, .f32⟩
  | .hbm, ⟨7, _⟩ => ⟨S32x1x8x8, .f32⟩
  | .hbm, ⟨8, _⟩ => ⟨S32x1x8x128x8x128, .f32⟩
  | .hbm, ⟨9, _⟩ => ⟨S_, .f32⟩
  | .hbm, ⟨10, _⟩ => ⟨S32x1x8x8, .f32⟩
  | .hbm, ⟨11, _⟩ => ⟨S_, .f32⟩
  | .hbm, ⟨12, _⟩ => ⟨S32x1x8x8, .f32⟩
  | .hbm, ⟨13, _⟩ => ⟨S32x1x8x8, .f32⟩
  | .hbm, ⟨14, _⟩ => ⟨S32x1x8x8, .f32⟩
  | .hbm, ⟨15, _⟩ => ⟨S32x1x8x8, .f32⟩
  | .hbm, ⟨16, _⟩ => ⟨S_, .f32⟩
  | .hbm, ⟨17, _⟩ => ⟨S32, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩

abbrev nD : Nat := 1
abbrev τ : Topo := Topo.v7x

variable {F : FTy → Type} [FloatOps F]

class Facts₀ : Prop where
  shapeCasts_S32x1x1024x1024_S32x1x8x128x8x128 : S32x1x1024x1024.ShapeCasts S32x1x8x128x8x128
  reducesTo_S32x1x8x128x8x128_S32x1x8x8_d3_5 : S32x1x8x128x8x128.ReducesTo [3, 5] S32x1x8x8
  h_S_ : 0 < S_.numel
  bcast_S_S32x1x8x8 : S_.BroadcastsInDim S32x1x8x8 (![] : Fin 0 → Fin S32x1x8x8.rank)
  reducesTo_S32x1x8x8_S32_d1_2_3 : S32x1x8x8.ReducesTo [1, 2, 3] S32
  reducesTo_S32_S_d0 : S32.ReducesTo [0] S_

variable [Facts₀]

class Facts : Prop extends Facts₀ where

variable [Facts]
-- ==== Proof.LibMeanAggregate.lean ====
/-
  Extended-real algebra for mean aggregation.

  On the extended reals ℝ ∪ {-∞, +∞} the ring laws (distributivity, associativity of sums of
  products, commuting a scaling past a sum) fail at the infinities. They all hold on the image of
  ℝ. This file records that image as a predicate, its closure under the operations a mean
  aggregation uses (sum, product, maximum, quotient by a nonzero real), and the two identities
  that let a row scaling  x ↦ x / d  move across a matrix product when every entry is real.
-/
import Idealize.ShloMosaic.PureOps.Ideal
import Mathlib.Tactic.FieldSimp
import Mathlib.Tactic.Ring

noncomputable section

namespace Cert.Lib.MeanAggregate

open Idealize.ShloMosaic
open scoped BigOperators

/-- An extended real is *real* when it is the image of a real number: neither +∞ nor -∞. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- The sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The coercion ℝ → EReal commutes with a finite sum over any finite set of indices. -/
theorem finset_sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The coercion ℝ → EReal commutes with a sum over a finite type. -/
theorem sum_coe {ι : Type} [Fintype ι] (f : ι → ℝ) :
    ∑ i, ((f i : ℝ) : EReal) = ((∑ i, f i : ℝ) : EReal) :=
  finset_sum_coe Finset.univ f

/-- A sum of reals over a finite set of indices is real. -/
theorem IsReal.finset_sum {ι : Type} (s : Finset ι) {f : ι → EReal} (h : ∀ i, IsReal (f i)) :
    IsReal (∑ i ∈ s, f i) := by
  choose g hg using h
  have hf : f = fun i => ((g i : ℝ) : EReal) := funext hg
  rw [hf, finset_sum_coe]
  exact ⟨_, rfl⟩

/-- A sum of reals over a finite type is real. -/
theorem IsReal.sum {ι : Type} [Fintype ι] {f : ι → EReal} (h : ∀ i, IsReal (f i)) :
    IsReal (∑ i, f i) :=
  IsReal.finset_sum Finset.univ h

/-- The maximum of two images of reals is the image of the maximum. -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The maximum (in the order of the extended reals) of two reals is real. -/
theorem IsReal.max {x y : EReal} (hx : IsReal x) (hy : IsReal y) : IsReal (max x y) := by
  obtain ⟨a, rfl⟩ := hx
  obtain ⟨b, rfl⟩ := hy
  exact ⟨_, max_coe a b⟩

/-- The exact float maximum of two reals is real: at the extended reals it is the order's max. -/
theorem IsReal.maximumf {φ : FTy} {x y : Ideal φ} (hx : IsReal x) (hy : IsReal y) :
    IsReal (FloatOps.maximumf x y) :=
  IsReal.max hx hy

/-- The quotient of a real by a nonzero real is real: it is the product with the reciprocal. -/
theorem IsReal.div {x d : EReal} (hx : IsReal x) (hd : IsReal d) (h0 : d ≠ 0) :
    IsReal (Ideal.div x d) := by
  obtain ⟨a, rfl⟩ := hx
  obtain ⟨b, rfl⟩ := hd
  have hb : b ≠ 0 := by
    rintro rfl
    exact h0 rfl
  rw [Ideal.div_coe hb, ← EReal.coe_mul]
  exact ⟨_, rfl⟩

/-- The maximum of anything with a positive real is positive. -/
theorem max_coe_pos (s : EReal) {e : ℝ} (he : 0 < e) : 0 < max s (e : EReal) :=
  lt_max_of_lt_right (EReal.coe_pos.mpr he)

/-- A degree clamped from below: for a real s and a positive real e, max s e is real and nonzero
    (it is at least e, which is positive). -/
theorem deg_ne_zero {s : EReal} (hs : IsReal s) {e : ℝ} (he : 0 < e) :
    IsReal (max s (e : EReal)) ∧ max s (e : EReal) ≠ 0 :=
  ⟨hs.max (isReal_coe e), ne_of_gt (max_coe_pos s he)⟩

/-- The same with the arguments of the maximum exchanged: max e s is real and nonzero. -/
theorem deg_ne_zero' {s : EReal} (hs : IsReal s) {e : ℝ} (he : 0 < e) :
    IsReal (max (e : EReal) s) ∧ max (e : EReal) s ≠ 0 := by
  rw [max_comm]
  exact deg_ne_zero hs he

/-- The clamped degree through the exact float maximum: it is the order's max, so for a real s and
    a positive real e, maximumf s e is real and nonzero. -/
theorem deg_ne_zero_maximumf {φ : FTy} {s : Ideal φ} (hs : IsReal s) {e : ℝ} (he : 0 < e) :
    IsReal (FloatOps.maximumf s ((e : EReal) : Ideal φ)) ∧
      FloatOps.maximumf s ((e : EReal) : Ideal φ) ≠ 0 :=
  deg_ne_zero hs he

/-- The same with the arguments of the float maximum exchanged. -/
theorem deg_ne_zero_maximumf' {φ : FTy} {s : Ideal φ} (hs : IsReal s) {e : ℝ} (he : 0 < e) :
    IsReal (FloatOps.maximumf ((e : EReal) : Ideal φ) s) ∧
      FloatOps.maximumf ((e : EReal) : Ideal φ) s ≠ 0 :=
  deg_ne_zero' hs he

/-- Multiplying by the reciprocal of a nonzero real is dividing by it: x * (1 / d) = x / d. -/
theorem mul_one_div_eq_div {x d : EReal} (_hx : IsReal x) (hd : IsReal d) (h0 : d ≠ 0) :
    x * Ideal.div 1 d = Ideal.div x d := by
  obtain ⟨b, rfl⟩ := hd
  have hb : b ≠ 0 := by
    rintro rfl
    exact h0 rfl
  rw [Ideal.div_coe hb, Ideal.div_coe hb, one_mul]

/-- A row scaling commutes with a right multiplication, one output entry at a time. For a row a of
    weights, a matrix h, a matrix W and a scalar d, all real, with d ≠ 0:
      ∑ₖ ((∑ⱼ aⱼ hⱼₖ) / d) Wₖ = (∑ⱼ aⱼ ∑ₖ hⱼₖ Wₖ) · (1 / d),
    that is ((a·h)/d)·W = (a·(h·W))·(1/d). Both sides are the image of the same real number:
    associativity and distributivity in ℝ. -/
theorem assoc_scale {ι κ γ : Type} [Fintype ι] [Fintype κ] [Fintype γ]
    {a : ι → EReal} {h : ι → κ → EReal} {W : κ → γ → EReal} {d : EReal}
    (ha : ∀ j, IsReal (a j)) (hh : ∀ j k, IsReal (h j k)) (hW : ∀ k c, IsReal (W k c))
    (hd : IsReal d) (h0 : d ≠ 0) (c : γ) :
    ∑ k, Ideal.div (∑ j, a j * h j k) d * W k c
      = (∑ j, a j * ∑ k, h j k * W k c) * Ideal.div 1 d := by
  choose a' ha' using ha
  choose h' hh' using hh
  choose W' hW' using hW
  obtain ⟨b, rfl⟩ := hd
  have hb : b ≠ 0 := by
    rintro rfl
    exact h0 rfl
  obtain rfl : a = fun j => ((a' j : ℝ) : EReal) := funext ha'
  obtain rfl : h = fun j k => ((h' j k : ℝ) : EReal) := funext fun j => funext (hh' j)
  obtain rfl : W = fun k c => ((W' k c : ℝ) : EReal) := funext fun k => funext (hW' k)
  simp only [Ideal.div_coe hb, one_mul, ← EReal.coe_mul, sum_coe]
  refine congrArg _ ?_
  simp only [Finset.sum_mul, Finset.mul_sum]
  rw [Finset.sum_comm]
  refine Finset.sum_congr rfl fun j _ => Finset.sum_congr rfl fun k _ => ?_
  ring

/-- The scaling written as a product with the reciprocal, before the right multiplication:
      ∑ₖ ((∑ⱼ aⱼ hⱼₖ) · (1 / d)) Wₖ = ∑ₖ ((∑ⱼ aⱼ hⱼₖ) / d) Wₖ
    for real a, h, d with d ≠ 0 (W is arbitrary). -/
theorem scale_mul_eq_div {ι κ γ : Type} [Fintype ι] [Fintype κ] [Fintype γ]
    {a : ι → EReal} {h : ι → κ → EReal} (W : κ → γ → EReal) {d : EReal}
    (ha : ∀ j, IsReal (a j)) (hh : ∀ j k, IsReal (h j k))
    (hd : IsReal d) (h0 : d ≠ 0) (c : γ) :
    ∑ k, ((∑ j, a j * h j k) * Ideal.div 1 d) * W k c
      = ∑ k, Ideal.div (∑ j, a j * h j k) d * W k c :=
  Finset.sum_congr rfl fun k _ => by
    rw [mul_one_div_eq_div (IsReal.sum fun j => (ha j).mul (hh j k)) hd h0]

/-- Both forms at once: scaling by the reciprocal before the right multiplication equals scaling
    by it after,  ((a·h)·(1/d))·W = (a·(h·W))·(1/d), when every entry is real and d ≠ 0. -/
theorem assoc_scale_mul {ι κ γ : Type} [Fintype ι] [Fintype κ] [Fintype γ]
    {a : ι → EReal} {h : ι → κ → EReal} {W : κ → γ → EReal} {d : EReal}
    (ha : ∀ j, IsReal (a j)) (hh : ∀ j k, IsReal (h j k)) (hW : ∀ k c, IsReal (W k c))
    (hd : IsReal d) (h0 : d ≠ 0) (c : γ) :
    ∑ k, ((∑ j, a j * h j k) * Ideal.div 1 d) * W k c
      = (∑ j, a j * ∑ k, h j k * W k c) * Ideal.div 1 d :=
  (scale_mul_eq_div W ha hh hd h0 c).trans (assoc_scale ha hh hW hd h0 c)

end Cert.Lib.MeanAggregate
-- ==== Proof.Spec.lean ====
/-
  The thumbnail L1 distance, as ONE function of the two images.

  Two images f, r of shape [32, 1, 1024, 1024].  Cut each 1024 x 1024 plane into an 8 x 8 grid of
  128 x 128 cells.  For sample b and cell (i, j) the box average of an image x is
      (sum over the cell's 128 x 128 pixels of x) / 16384,
  the distance of sample b is the sum over the 64 cells of | average of f - average of r |, and the
  result is the mean of the 32 distances.

  The kernel computes the cell's value in another order: it subtracts first, sums the 128 rows of the
  cell, scales by 1/128, sums the 128 columns, scales by 1/128 again.  Since 1/128 * 1/128 = 1/16384
  and sums distribute over products and differences ON THE REALS, the two orders agree when every
  pixel is a real number (at an infinity the difference of two averages need not be the average of
  the differences).  That is cell_law below.
-/
import Idealize.ShloMosaic.PureOps.Ideal
import Idealize.ShloMosaic.PureOps.Ideal.Laws
import Idealize.ShloMosaic.Lib.ValueIdx
import proofs.«161667_j89696097010276_2_alg».proof.Proof.LibMeanAggregate

noncomputable section

namespace Cert.Thumb

open Idealize.ShloMosaic Idealize.ShloMosaic.ValueIdx Cert.Lib.MeanAggregate
open scoped BigOperators

/-- The shape of an image batch. -/
abbrev SImg : Shape := ⟨4, ![32, 1, 1024, 1024]⟩

/-- Pixel (y, x) of sample b (the one channel). -/
abbrev pix (b : Fin 32) (y x : Fin 1024) : SImg.Idx := ix4 b (0 : Fin 1) y x

/-- Row a of the i-th band of 128 rows. -/
def yIn (i : Fin 8) (a : Fin 128) : Fin 1024 := ⟨128 * i.val + a.val, by omega⟩
/-- Column k of the j-th band of 128 columns. -/
def xIn (j : Fin 8) (k : Fin 128) : Fin 1024 := ⟨128 * j.val + k.val, by omega⟩

/-- The three float constants the programs spell: 1/128, 16384 and 32. -/
abbrev c128 : EReal := Ideal.ofBits .f32 0x3C000000#32
abbrev c16384 : EReal := Ideal.ofBits .f32 0x46800000#32
abbrev c32 : EReal := Ideal.ofBits .f32 0x42000000#32

theorem c128_eq : c128 = ((1 / 128 : ℝ) : EReal) := by
  simp [c128, Ideal.ofBits, Ideal.ieee, -EReal.coe_mul]; norm_num

theorem c16384_eq : c16384 = ((16384 : ℝ) : EReal) := by
  simp [c16384, Ideal.ofBits, Ideal.ieee, -EReal.coe_mul]; norm_num

/-- The absolute value on the extended reals, as the float operation spells it. -/
def eabs (x : EReal) : EReal := max x (-x)

/-- The sum of an image over cell (i, j) of sample b. -/
def cellSum (x : SImg.Idx → EReal) (b : Fin 32) (i j : Fin 8) : EReal :=
  ∑ a : Fin 128, ∑ k : Fin 128, x (pix b (yIn i a) (xIn j k))

/-- The reference's value of a cell: the difference of the two box averages. -/
def refCell (f r : SImg.Idx → EReal) (b : Fin 32) (i j : Fin 8) : EReal :=
  Ideal.div (cellSum f b i j) c16384 - Ideal.div (cellSum r b i j) c16384

/-- The kernel's value of a cell: rows of the difference summed and scaled, then columns summed and scaled. -/
def kerCell (f r : SImg.Idx → EReal) (b : Fin 32) (i j : Fin 8) : EReal :=
  (∑ k : Fin 128, (∑ a : Fin 128, (f (pix b (yIn i a) (xIn j k)) - r (pix b (yIn i a) (xIn j k)))) * c128) * c128

/-- The distance of sample b, from a cell value. -/
def sample (cell : Fin 32 → Fin 8 → Fin 8 → EReal) (b : Fin 32) : EReal :=
  ∑ i : Fin 8, ∑ j : Fin 8, eabs (cell b i j)

/-- The mean over the batch. -/
def result (cell : Fin 32 → Fin 8 → Fin 8 → EReal) : EReal :=
  Ideal.div (∑ b : Fin 32, sample cell b) c32

/-- The law on the reals: the rows of the difference summed and scaled by 1/128, then the columns summed and
    scaled by 1/128, is the difference of the two whole sums, each scaled by 1/16384. -/
theorem cell_law_R {ι κ : Type} [Fintype ι] [Fintype κ] (f r : ι → κ → ℝ) :
    (∑ k : κ, (∑ a : ι, (f a k - r a k)) * (1 / 128)) * (1 / 128)
      = (∑ a : ι, ∑ k : κ, f a k) * (1 / 16384) - (∑ a : ι, ∑ k : κ, r a k) * (1 / 16384) := by
  rw [← Finset.sum_mul, Finset.sum_comm]
  simp only [Finset.sum_sub_distrib]
  ring

/-- The same on the extended reals, for entries that are images of reals. -/
theorem cell_law_real {ι κ : Type} [Fintype ι] [Fintype κ] (f r : ι → κ → ℝ) :
    (∑ k : κ, (∑ a : ι, (((f a k : ℝ) : EReal) - ((r a k : ℝ) : EReal))) * c128) * c128
      = Ideal.div (∑ a : ι, ∑ k : κ, ((f a k : ℝ) : EReal)) c16384 - Ideal.div (∑ a : ι, ∑ k : κ, ((r a k : ℝ) : EReal)) c16384 := by
  rw [c128_eq, c16384_eq]
  simp only [← EReal.coe_sub, sum_coe, ← EReal.coe_mul, Ideal.div_coe (by norm_num : (16384 : ℝ) ≠ 0)]
  exact congrArg _ (cell_law_R f r)

/-- The two cell values agree where every pixel of both images is a real number. -/
theorem cell_law (f r : SImg.Idx → EReal) (hf : ∀ i, IsReal (f i)) (hr : ∀ i, IsReal (r i)) (b : Fin 32) (i j : Fin 8) :
    kerCell f r b i j = refCell f r b i j := by
  choose f' hf' using hf
  choose r' hr' using hr
  obtain rfl : f = fun i => ((f' i : ℝ) : EReal) := funext hf'
  obtain rfl : r = fun i => ((r' i : ℝ) : EReal) := funext hr'
  exact cell_law_real (fun a k => f' (pix b (yIn i a) (xIn j k))) (fun a k => r' (pix b (yIn i a) (xIn j k)))

/-- So the two results agree there. -/
theorem result_law (f r : SImg.Idx → EReal) (hf : ∀ i, IsReal (f i)) (hr : ∀ i, IsReal (r i)) :
    result (kerCell f r) = result (refCell f r) := by
  have : kerCell f r = refCell f r := funext fun b => funext fun i => funext fun j => cell_law f r hf hr b i j
  rw [this]

end Cert.Thumb

end
-- ==== Proof.Finite.lean ====
/-
  Finiteness read back from the stated precondition.

  The precondition says, of each of the two image batches, that |x| < +∞ at every pixel, the two
  "for all pixels" joined by an "and".  On the extended reals |x| = max x (-x), and max x (-x) < +∞
  rules out both infinities, so every pixel is the image of a real number.
-/
import proofs.«161667_j89696097010276_2_alg».proof.Pre_finite_inputs
import proofs.«161667_j89696097010276_2_alg».proof.Proof.LibMeanAggregate
import Idealize.ShloMosaic.Lib.ReduceAll
import Idealize.ShloMosaic.Lib.ValueIdx
import Idealize.ShloMosaic.PureOps.Ideal

noncomputable section

namespace Cert.Thumb.Finite

open Idealize.ShloMosaic Idealize.ShloMosaic.ValueIdx Cert.Lib.MeanAggregate

/-- The bit pattern 0x7F800000 is +∞. -/
theorem inf_word : Ideal.ofBits .f32 0x7F800000#32 = (⊤ : EReal) := by
  simp [Ideal.ofBits, Ideal.ieee]

/-- An extended real whose absolute value max x (-x) is strictly below +∞ is a real number. -/
theorem isReal_of_abs_lt_top (x : EReal) (h : max x (-x) < (⊤ : EReal)) : IsReal x := by
  induction x using EReal.rec with
  | bot => simp at h
  | coe r => exact ⟨r, rfl⟩
  | top => simp at h

/-- The same, stated on the comparison word the precondition computes: "|x| < +∞" came out true. -/
theorem isReal_of_cmp (x : Ideal .f32)
    (h : FloatOps.cmpf .olt (FloatOps.hostAbsf x) (FloatOps.ofBits (F := Ideal) .f32 0x7F800000#32) = 1#1) :
    IsReal x := by
  change Ideal.cmp .olt (max (x : EReal) (-(x : EReal))) (Ideal.ofBits .f32 0x7F800000#32) = 1#1 at h
  rw [inf_word] at h
  unfold Ideal.cmp at h
  by_cases hlt : max (x : EReal) (-(x : EReal)) < ⊤
  · exact isReal_of_abs_lt_top x hlt
  · simp [hlt] at h

/-- The scalar shape has one index. -/
instance : Subsingleton Cert.Pre_finite_inputs.S_.Idx := ⟨fun a b => funext fun d => d.elim0⟩

/-- Under the stated precondition every pixel of both image batches is a real number. -/
theorem real_of_pre [Cert.Pre_finite_inputs.Facts] (x0 x1 : FVec Ideal Cert.Pre_finite_inputs.S32x1x1024x1024 .f32)
    (h : Cert.Pre_finite_inputs.fn (F := Ideal) x0 x1 = fun _ => 1#1) :
    (∀ i, IsReal (x0 i)) ∧ (∀ i, IsReal (x1 i)) := by
  have h0 := congrFun h ValueIdx.ix0
  dsimp only [Cert.Pre_finite_inputs.fn] at h0
  obtain ⟨ha, hb⟩ := IntOp.andi_eq_one.1 h0
  refine ⟨fun i => ?_, fun i => ?_⟩
  · exact isReal_of_cmp (x0 i) (Host.reduce_andi_all _ _ _ _ _ ha i)
  · exact isReal_of_cmp (x1 i) (Host.reduce_andi_all _ _ _ _ _ hb i)

end Cert.Thumb.Finite

end
-- ==== Proof.RefValue.lean ====
/-
  The reference's result as ONE function of the two images.

  The reference views each image [32, 1, 1024, 1024] as [32, 1, 8, 128, 8, 128] — element (b, 0, i, a, j, k) of the
  view is pixel (128 i + a, 128 j + k) of sample b, the two having the same row-major position —, sums the view over
  its axes 3 and 5 (the 128 x 128 pixels of cell (i, j)), divides by 16384, subtracts the second image's averages
  from the first's, takes absolute values, sums over the 8 x 8 cells of each sample, sums over the 32 samples and
  divides by 32.  Each sum is the initial value 0 plus a sum over the indices that drop to the result index; those
  indices are the image of a product of coordinate ranges under an injection, so the sum is an iterated sum over
  the coordinates.  Read this way the result is the mean over the batch of the samples' distances, each the sum
  over the cells of | average of the first image - average of the second |.
-/
import proofs.«161667_j89696097010276_2_alg».proof.Defs
import proofs.«161667_j89696097010276_2_alg».proof.Proof.Gen.ReferenceIdeal.Read
import proofs.«161667_j89696097010276_2_alg».proof.Proof.Spec
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read Cert.Thumb
open scoped BigOperators

/-- An index of the six-axis view [32, 1, 8, 128, 8, 128] from its coordinates:
    sample, channel, band of rows, row in the band, band of columns, column in the band. -/
abbrev ix6 (b : Fin 32) (c : Fin 1) (i : Fin 8) (a : Fin 128) (j : Fin 8) (k : Fin 128) : S32x1x8x128x8x128.Idx :=
  fun d => match d with | ⟨0, _⟩ => b | ⟨1, _⟩ => c | ⟨2, _⟩ => i | ⟨3, _⟩ => a | ⟨4, _⟩ => j | ⟨5, _⟩ => k

/-- The reshape reads (b, 0, i, a, j, k) of the six-axis view at pixel (128 i + a, 128 j + k) of sample b:
    both have the row-major position 1048576 b + 131072 i + 1024 a + 128 j + k. -/
theorem reshape_apply (x : SImg.Idx → EReal) (b : Fin 32) (i : Fin 8) (a : Fin 128) (j : Fin 8) (k : Fin 128) :
    shapeCast S32x1x8x128x8x128 x shapeCasts_S32x1x1024x1024_S32x1x8x128x8x128 (ix6 b 0 i a j k)
      = x (pix b (yIn i a) (xIn j k)) := by
  unfold shapeCast
  congr 1
  apply Shape.reshapeEquiv_eq_of_rowMajor
  show (Shape.rowMajorPi S32x1x1024x1024.size (pix b (yIn i a) (xIn j k))).val
      = (Shape.rowMajorPi S32x1x8x128x8x128.size (ix6 b 0 i a j k)).val
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val,
    Shape.rowMajorPi_succ_val, Shape.rowMajorPi_succ_val]
  have p0 : ((pix b (yIn i a) (xIn j k)) 0).val = b.val := rfl
  have p1 : ((pix b (yIn i a) (xIn j k)) 1).val = 0 := rfl
  have p2 : ((pix b (yIn i a) (xIn j k)) 2).val = 128 * i.val + a.val := rfl
  have p3 : ((pix b (yIn i a) (xIn j k)) 3).val = 128 * j.val + k.val := rfl
  have c0 : ((ix6 b 0 i a j k) 0).val = b.val := rfl
  have c1 : ((ix6 b 0 i a j k) 1).val = 0 := rfl
  have c2 : ((ix6 b 0 i a j k) 2).val = i.val := rfl
  have c3 : ((ix6 b 0 i a j k) 3).val = a.val := rfl
  have c4 : ((ix6 b 0 i a j k) 4).val = j.val := rfl
  have c5 : ((ix6 b 0 i a j k) 5).val = k.val := rfl
  simp [Fin.prod_univ_succ, Shape.rowMajorPi_zero, p0, p1, p2, p3, c0, c1, c2, c3, c4, c5]
  omega

/-! ### The sum over the pixels of a cell (axes 3 and 5 of the six-axis view) -/

/-- Dropping axes 3 and 5 of (b, c, i, a, j, k) leaves (b, c, i, j); -/
theorem drop_ix6 (b : Fin 32) (c : Fin 1) (i : Fin 8) (a : Fin 128) (j : Fin 8) (k : Fin 128) :
    reducesTo_S32x1x8x128x8x128_S32x1x8x8_d3_5.drop (ix6 b c i a j k) = ix4 b c i j := by
  funext d
  match d with
  | ⟨0, _⟩ => rfl
  | ⟨1, _⟩ => rfl
  | ⟨2, _⟩ => rfl
  | ⟨3, _⟩ => rfl

/-- and an index that drops to (b, c, i, j) is (b, c, i, its row, j, its column); -/
theorem eq_ix6_of_drop (y : S32x1x8x128x8x128.Idx) (b : Fin 32) (c : Fin 1) (i j : Fin 8)
    (h : reducesTo_S32x1x8x128x8x128_S32x1x8x8_d3_5.drop y = ix4 b c i j) : y = ix6 b c i (y 3) j (y 5) := by
  have h0 : y 0 = b := congrFun h 0
  have h1 : y 1 = c := congrFun h 1
  have h2 : y 2 = i := congrFun h 2
  have h4 : y 4 = j := congrFun h 3
  funext d
  match d with
  | ⟨0, _⟩ => exact h0
  | ⟨1, _⟩ => exact h1
  | ⟨2, _⟩ => exact h2
  | ⟨3, _⟩ => rfl
  | ⟨4, _⟩ => exact h4
  | ⟨5, _⟩ => rfl

/-- so the indices the sum runs over at (b, c, i, j) are the 128 x 128 pairs (row, column) of the cell. -/
def cellEmb (b : Fin 32) (c : Fin 1) (i j : Fin 8) : Fin 128 × Fin 128 ↪ S32x1x8x128x8x128.Idx :=
  ⟨fun p => ix6 b c i p.1 j p.2, fun p q h => Prod.ext (congrFun h 3) (congrFun h 5)⟩

theorem filter_drop_cell (b : Fin 32) (c : Fin 1) (i j : Fin 8) :
    Finset.univ.filter (fun y : S32x1x8x128x8x128.Idx => reducesTo_S32x1x8x128x8x128_S32x1x8x8_d3_5.drop y = ix4 b c i j)
      = Finset.univ.map (cellEmb b c i j) := by
  ext y
  simp only [Finset.mem_filter, Finset.mem_univ, true_and, Finset.mem_map, cellEmb, Function.Embedding.coeFn_mk]
  exact ⟨fun h => ⟨(y 3, y 5), (eq_ix6_of_drop y b c i j h).symm⟩, fun ⟨p, hp⟩ => hp ▸ drop_ix6 b c i p.1 j p.2⟩

/-- The sum over axes 3 and 5 of the reshaped image, at cell (i, j) of sample b, is the initial value plus the
    sum of the cell's pixels. -/
theorem cell_reduce (x : SImg.Idx → EReal) (init : EReal) (b : Fin 32) (c : Fin 1) (i j : Fin 8) :
    Ideal.hostReduceAdd reducesTo_S32x1x8x128x8x128_S32x1x8x8_d3_5
        (shapeCast S32x1x8x128x8x128 x shapeCasts_S32x1x1024x1024_S32x1x8x128x8x128) init (ix4 b c i j)
      = init + cellSum x b i j := by
  obtain rfl : c = 0 := Subsingleton.elim _ _
  unfold Ideal.hostReduceAdd
  rw [filter_drop_cell, Finset.sum_map, Fintype.sum_prod_type]
  refine congrArg (init + ·) ?_
  unfold cellSum
  refine Finset.sum_congr rfl fun a _ => Finset.sum_congr rfl fun k _ => ?_
  exact reshape_apply x b i a j k

/-! ### The sum over the cells of a sample (axes 1, 2, 3 of [32, 1, 8, 8]) -/

/-- Dropping axes 1, 2, 3 of (b, c, i, j) leaves (b); -/
theorem drop_ix4 (b : Fin 32) (c : Fin 1) (i j : Fin 8) :
    reducesTo_S32x1x8x8_S32_d1_2_3.drop (ix4 b c i j) = ix1 b := by
  funext d
  match d with
  | ⟨0, _⟩ => rfl

/-- and an index that drops to (b) is (b, its channel, its band of rows, its band of columns); -/
theorem eq_ix4_of_drop (y : S32x1x8x8.Idx) (b : Fin 32) (h : reducesTo_S32x1x8x8_S32_d1_2_3.drop y = ix1 b) :
    y = ix4 b (y 1) (y 2) (y 3) := by
  have h0 : y 0 = b := congrFun h 0
  funext d
  match d with
  | ⟨0, _⟩ => exact h0
  | ⟨1, _⟩ => rfl
  | ⟨2, _⟩ => rfl
  | ⟨3, _⟩ => rfl

/-- so the indices the sum runs over at sample b are the triples (channel, band of rows, band of columns). -/
def sampleEmb (b : Fin 32) : Fin 1 × Fin 8 × Fin 8 ↪ S32x1x8x8.Idx :=
  ⟨fun p => ix4 b p.1 p.2.1 p.2.2,
    fun p q h => Prod.ext (congrFun h 1) (Prod.ext (congrFun h 2) (congrFun h 3))⟩

theorem filter_drop_sample (b : Fin 32) :
    Finset.univ.filter (fun y : S32x1x8x8.Idx => reducesTo_S32x1x8x8_S32_d1_2_3.drop y = ix1 b)
      = Finset.univ.map (sampleEmb b) := by
  ext y
  simp only [Finset.mem_filter, Finset.mem_univ, true_and, Finset.mem_map, sampleEmb, Function.Embedding.coeFn_mk]
  exact ⟨fun h => ⟨(y 1, y 2, y 3), (eq_ix4_of_drop y b h).symm⟩, fun ⟨p, hp⟩ => hp ▸ drop_ix4 b p.1 p.2.1 p.2.2⟩

/-- The sum over axes 1, 2, 3 of a [32, 1, 8, 8] array, at sample b, is the initial value plus the sum over the
    8 x 8 cells of the one channel. -/
theorem sample_reduce (f : S32x1x8x8.Idx → EReal) (init : EReal) (b : Fin 32) :
    Ideal.hostReduceAdd reducesTo_S32x1x8x8_S32_d1_2_3 f init (ix1 b)
      = init + ∑ i : Fin 8, ∑ j : Fin 8, f (ix4 b 0 i j) := by
  unfold Ideal.hostReduceAdd
  rw [filter_drop_sample, Finset.sum_map]
  simp only [Fintype.sum_prod_type, Fin.sum_univ_one]
  rfl

/-! ### The sum over the samples (the one axis of [32]) -/

/-- An index of [32] is its coordinate. -/
def idxEquiv1 : S32.Idx ≃ Fin 32 where
  toFun y := y 0
  invFun b := ix1 b
  left_inv y := (eq_ix1 y).symm
  right_inv _ := rfl

theorem sum_S32 (f : S32.Idx → EReal) : ∑ y, f y = ∑ b : Fin 32, f (ix1 b) :=
  (Equiv.sum_comp idxEquiv1.symm f).symm

/-! ### The stages, read at an index -/

/-- The zero word is the extended real 0. -/
theorem zero_word : (FloatOps.ofBits (F := Ideal) .f32 0x00000000#32 : EReal) = 0 := Ideal.ofBits_zero_f32

/-- The sum of the cell's pixels of the second image. -/
theorem v1_apply (x : SImg.Idx → EReal) (b : Fin 32) (c : Fin 1) (i j : Fin 8) :
    val_main_v1 (F := Ideal) x (ix4 b c i j) = cellSum x b i j := by
  show Ideal.hostReduceAdd reducesTo_S32x1x8x128x8x128_S32x1x8x8_d3_5
      (shapeCast S32x1x8x128x8x128 x shapeCasts_S32x1x1024x1024_S32x1x8x128x8x128)
      (FloatOps.ofBits (F := Ideal) .f32 0x00000000#32) (ix4 b c i j) = _
  rw [cell_reduce, zero_word, zero_add]

/-- The sum of the cell's pixels of the first image. -/
theorem v5_apply (x : SImg.Idx → EReal) (b : Fin 32) (c : Fin 1) (i j : Fin 8) :
    val_main_v5 (F := Ideal) x (ix4 b c i j) = cellSum x b i j := by
  show Ideal.hostReduceAdd reducesTo_S32x1x8x128x8x128_S32x1x8x8_d3_5
      (shapeCast S32x1x8x128x8x128 x shapeCasts_S32x1x1024x1024_S32x1x8x128x8x128)
      (FloatOps.ofBits (F := Ideal) .f32 0x00000000#32) (ix4 b c i j) = _
  rw [cell_reduce, zero_word, zero_add]

/-- The difference of the two box averages: the first image's minus the second's. -/
theorem v8_apply (x0 x1 : SImg.Idx → EReal) (b : Fin 32) (c : Fin 1) (i j : Fin 8) :
    val_main_v8 (F := Ideal) x0 x1 (ix4 b c i j) = refCell x0 x1 b i j := by
  rw [val_main_v8_apply, val_main_v7_apply, val_main_v3_apply, v5_apply, v1_apply, val_main_v6_apply,
    val_main_v2_apply]
  rfl

/-- Its absolute value. -/
theorem v9_apply (x0 x1 : SImg.Idx → EReal) (b : Fin 32) (c : Fin 1) (i j : Fin 8) :
    val_main_v9 (F := Ideal) x0 x1 (ix4 b c i j) = eabs (refCell x0 x1 b i j) := by
  rw [val_main_v9_apply, v8_apply]
  rfl

/-- The distance of sample b. -/
theorem v10_apply (x0 x1 : SImg.Idx → EReal) (b : Fin 32) :
    val_main_v10 (F := Ideal) x0 x1 (ix1 b) = sample (refCell x0 x1) b := by
  show Ideal.hostReduceAdd reducesTo_S32x1x8x8_S32_d1_2_3 (val_main_v9 (F := Ideal) x0 x1)
      (FloatOps.ofBits (F := Ideal) .f32 0x00000000#32) (ix1 b) = _
  rw [sample_reduce, zero_word, zero_add]
  unfold sample
  exact Finset.sum_congr rfl fun i _ => Finset.sum_congr rfl fun j _ => v9_apply x0 x1 b 0 i j

/-- The reference's result: the mean over the batch of the samples' distances. -/
theorem ref_result (x0 x1 : Cert.Thumb.SImg.Idx → EReal) :
    Cert.ReferenceIdeal.Read.val_main_v12 (F := Ideal) x0 x1 = fun _ => Cert.Thumb.result (Cert.Thumb.refCell x0 x1) := by
  funext y
  rw [val_main_v12_apply, val_main_v11_apply, sum_S32]
  simp only [v10_apply]
  show Ideal.div (FloatOps.ofBits (F := Ideal) .f32 0x00000000#32 + ∑ b : Fin 32, sample (refCell x0 x1) b) c32 = _
  rw [zero_word, zero_add]
  rfl

end Cert.ReferenceIdeal.RefValue

end
-- ==== Proof.KPieces.lean ====
/-
  What each kind of grid point leaves behind, as values.

  The grid is 2 x 8: for each half of the batch (16 samples) eight points, one per band of 128 image rows.
  A 16 x 1 accumulator is carried along the eight points of a half.  Every point adds to it the band's
  contribution  sum over the 8 cells of the band of | cell value |  (one term, named here by the body's
  arithmetic); the first point of a half starts from the zero block, and the last point also copies the
  accumulator into the 16 x 1 x 128 output block, the same value along the 128 lanes.

  These four lemmas say exactly that, for any number format: the accumulator after a first, a middle and a last
  point, and the output block after a last point.
-/
import proofs.«161667_j89696097010276_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.KValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- What a point that is neither first nor last of its row of the grid leaves in the carried accumulator: the
    accumulator it found plus the band's contribution (the one covering store's payload, its loads the whole buffers). -/
theorem sout_B (c : Dev nD) (i : grid0.Coords) (a2 : Memref sig .tc .vmem S16x1x128x1024 .f32) (h2 : a2.IsWhole)
    (a3 : Memref sig .tc .vmem S16x1x128x1024 .f32) (h3 : a3.IsWhole) (a4 : Memref sig .tc .vmem S16x1x128 .f32) (h4 : a4.IsWhole)
    (a5 : Memref sig .tc .vmem S16x1 .f32) (h5 : a5.IsWhole) (hc0 : ¬cond0_0 i) (hc1 : ¬cond0_1 i)
    (x0 x1 : Vec F S16x1x128x1024 .f32) (xs : Vec F S16x1 .f32) :
    sout0_B_0 c i a2 h2 a3 h3 a4 h4 a5 h5 hc0 hc1 x0 x1 xs
      = k0_pay2 (k0_pay4 x0 x1) (k0_pay5 x0 x1) (k0_pay6 x0 x1) xs := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero hz2]
  simp only [View.readAt_eq_ld, h2.read_unread, h3.read_unread, h5.read_unread, View.ld_unit_zero (S := S16x1) hz2,
    View.ld_unit_zero (S := S16x1x128x1024) hz4]

/-- What the first point of a row of the grid leaves there: the zero block it stored first, read back, plus the
    band's contribution. -/
theorem sout_A (c : Dev nD) (i : grid0.Coords) (a2 : Memref sig .tc .vmem S16x1x128x1024 .f32) (h2 : a2.IsWhole)
    (a3 : Memref sig .tc .vmem S16x1x128x1024 .f32) (h3 : a3.IsWhole) (a4 : Memref sig .tc .vmem S16x1x128 .f32) (h4 : a4.IsWhole)
    (a5 : Memref sig .tc .vmem S16x1 .f32) (h5 : a5.IsWhole) (hc0 : cond0_0 i) (hc1 : ¬cond0_1 i)
    (x0 x1 : Vec F S16x1x128x1024 .f32) :
    sout0_A_0 c i a2 h2 a3 h3 a4 h4 a5 h5 hc0 hc1 x0 x1
      = k0_pay2 (k0_pay4 x0 x1) (k0_pay5 x0 x1) (k0_pay6 x0 x1) (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S16x1) hz2, View.readCov_unit_zero (S := S16x1) _ hz2]
  simp only [View.readAt_eq_ld, h2.read_unread, h3.read_unread, h5.read_unread, View.ld_unit_zero (S := S16x1) hz2,
    View.ld_unit_zero (S := S16x1x128x1024) hz4]

/-- The last point of a row of the grid leaves the same in the accumulator, -/
theorem sout_C (c : Dev nD) (i : grid0.Coords) (a2 : Memref sig .tc .vmem S16x1x128x1024 .f32) (h2 : a2.IsWhole)
    (a3 : Memref sig .tc .vmem S16x1x128x1024 .f32) (h3 : a3.IsWhole) (a4 : Memref sig .tc .vmem S16x1x128 .f32) (h4 : a4.IsWhole)
    (a5 : Memref sig .tc .vmem S16x1 .f32) (h5 : a5.IsWhole) (hc0 : ¬cond0_0 i) (hc1 : cond0_1 i)
    (x0 x1 : Vec F S16x1x128x1024 .f32) (xs : Vec F S16x1 .f32) :
    sout0_C_0 c i a2 h2 a3 h3 a4 h4 a5 h5 hc0 hc1 x0 x1 xs
      = k0_pay2 (k0_pay4 x0 x1) (k0_pay5 x0 x1) (k0_pay6 x0 x1) xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz2]
  simp only [View.readAt_eq_ld, h2.read_unread, h3.read_unread, h5.read_unread, View.ld_unit_zero (S := S16x1) hz2,
    View.ld_unit_zero (S := S16x1x128x1024) hz4]

/-- and in the output block the accumulator it has just stored, read back and spread along the 128 lanes. -/
theorem out_C (c : Dev nD) (i : grid0.Coords) (a2 : Memref sig .tc .vmem S16x1x128x1024 .f32) (h2 : a2.IsWhole)
    (a3 : Memref sig .tc .vmem S16x1x128x1024 .f32) (h3 : a3.IsWhole) (a4 : Memref sig .tc .vmem S16x1x128 .f32) (h4 : a4.IsWhole)
    (a5 : Memref sig .tc .vmem S16x1 .f32) (h5 : a5.IsWhole) (hc0 : ¬cond0_0 i) (hc1 : cond0_1 i)
    (x0 x1 : Vec F S16x1x128x1024 .f32) (xs : Vec F S16x1 .f32) :
    out0_C_2 c i a2 h2 a3 h3 a4 h4 a5 h5 hc0 hc1 x0 x1 xs
      = k0_pay3 (k0_pay2 (k0_pay4 x0 x1) (k0_pay5 x0 x1) (k0_pay6 x0 x1) xs) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz3]
  simp only [View.readAt_eq_ld, View.readCov_unit_zero (S := S16x1) _ hz2, h2.read_unread, h3.read_unread, h5.read_unread, View.ld_unit_zero (S := S16x1) hz2,
    View.ld_unit_zero (S := S16x1x128x1024) hz4]

end Cert.KernelIdeal.KValue
end
-- ==== Proof.LibColumns.lean ====
/-
  Column forms of three layout operations, read at an index of literal coordinates.

  A sum over the lanes of an `a × b` array keeps one entry per row; kernels then give that column vector a unit second
  axis (`[a] → [a, 1]`) and spread it back over the lanes (`[a, 1] → [a, b]`). Read at an index:

  * `shapeCast_a_a1_apply`: the cast of `x : [a]` to `[a, 1]` at `(r, u)` is `x r`, whatever the unit coordinate `u`;
  * `broadcastTo_a1_ab_apply`: the broadcast of `v : [a, 1]` to `[a, b]` at `(r, c)` is `v (r, 0)`;
  * `shapeCast_a1_1a_apply`: the cast of a column `x : [a, 1]` to a row `[1, a]` at `(u, c)` is `x (c, 0)`;
  * `lift_rows`: over a row index `r`, the source index with lane `k` put back is `(r, k)`;
  * `multiReduction_add_rows`: at the extended reals the lane sum of `x : [a, b]` at row `r` is `∑ k, x (r, k)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Proof.Columns

open Idealize.ShloMosaic Idealize.ShloMosaic.ValueIdx

variable {α : Type}

/-- An `[a]` array cast to `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` cast to a row `[1, a]` reads, at `(u, c)`, the operand at `(c, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (c : Fin a) : shapeCast ⟨2, ![1, a]⟩ x h (ix2 u c) = x (ix2 c (0 : Fin 1)) :=
  shapeCast_apply x h _ _ (by
    have hu : u.val = 0 := by omega
    rw [Shape.rowMajor_val_two, Shape.rowMajor_val_two]
    show c.val * 1 + 0 = u.val * a + c.val
    rw [hu, Nat.zero_mul, Nat.zero_add, Nat.mul_one, Nat.add_zero])

/-- An `[a, 1]` array broadcast to `[a, b]` reads, at `(r, c)`, the operand's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the row index `r`, the source index whose lane coordinate is `k` is `(r, k)`. -/
theorem lift_rows {a b : ℕ} (h : (⟨2, ![a, b]⟩ : Shape).Reduces [(1 : Fin 2)] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lanes of an `a × b` array, at the extended reals and at row `r`, is `∑ k, x (r, k)`. The
    accumulator fact is taken in the form a printed program carries it. -/
theorem multiReduction_add_rows {a b : ℕ} {φ : FTy} (x : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (r : Fin a) :
    multiReduction .add [(1 : Fin 2)] ⟨1, ![a]⟩ x acc h hφ hacc (ix1 r) = ∑ k : Fin b, x (ix2 r k) := by
  refine (Ideal.multiReduction_add_single x acc h hφ hacc (ix1 r)).trans ?_
  exact Finset.sum_congr rfl fun k _ => congrArg x (lift_rows h r k)

end Cert.Proof.Columns

end
-- ==== Proof.KPayload.lean ====
/-
  The body's arithmetic read at an index, at the extended reals.

  Inside one grid point the two blocks x0, x1 have shape 16 x 1 x 128 x 1024: 16 samples, one band of 128 rows, all
  1024 columns.  Entry (b, w) of the scaled row sums is (sum over the band's rows a of x0 - x1) / 128; a cell j of
  the band (columns 128 j .. 128 j + 127) contributes | (sum of those over the cell's columns) / 128 |, and the
  point adds the eight cells' terms to row b of the accumulator.  The body adds them one at a time starting from
  the zero word; on the extended reals addition is commutative and associative, so that is the plain sum.
-/
import proofs.«161667_j89696097010276_2_alg».proof.Proof.Gen.KernelIdeal.Skeleton
import proofs.«161667_j89696097010276_2_alg».proof.Proof.Spec
import proofs.«161667_j89696097010276_2_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx
open scoped BigOperators

namespace Cert.KernelIdeal.KValue

open Cert.KernelIdeal Cert.KernelIdeal.Gen Cert.Thumb Cert.Proof.Columns

/-- A 16 x 1 x 128 x 1024 block with its unit axis dropped reads, at (b, a, w), the block at (b, 0, a, w). -/
theorem cast_drop_channel {α : Type} (x : S16x1x128x1024.Idx → α) (h : S16x1x128x1024.ShapeCasts S16x128x1024)
    (b : Fin 16) (a : Fin 128) (w : Fin 1024) :
    shapeCast S16x128x1024 x h (ix3 b a w) = x (ix4 b (0 : Fin 1) a w) :=
  shapeCast_apply x h _ _ (by
    rw [Shape.rowMajor_val_three, Shape.rowMajor_val_four]
    show ((b.val * 1 + 0) * 128 + a.val) * 1024 + w.val = (b.val * 128 + a.val) * 1024 + w.val
    omega)

/-- Over (b, w), the index of the 16 x 128 x 1024 array whose row coordinate is a. -/
theorem lift_rows3 (h : S16x128x1024.Reduces [(1 : Fin 3)] S16x1024) (b : Fin 16) (w : Fin 1024) (a : Fin 128) :
    h.lift (ix2 b w) a = ix3 b a w := by
  funext c
  refine Fin.ext ?_
  match c with
  | ⟨0, _⟩ => rfl
  | ⟨1, _⟩ => rfl
  | ⟨2, _⟩ => rfl

/-- The sum over the 128 rows of a 16 x 128 x 1024 array, at sample b and column w. -/
theorem sum_rows3 (v : FVec Ideal S16x128x1024 .f32) (acc : BitVec 32) (h : S16x128x1024.Reduces [(1 : Fin 3)] S16x1024)
    (hφ : FKind.Formats .f32) (hacc : acc = FKind.add.neutral .f32 hφ) (b : Fin 16) (w : Fin 1024) :
    multiReduction .add [(1 : Fin 3)] S16x1024 v acc h hφ hacc (ix2 b w) = ∑ a : Fin 128, v (ix3 b a w) := by
  refine (Ideal.multiReduction_add_single v acc h hφ hacc (ix2 b w)).trans ?_
  exact Finset.sum_congr rfl fun a _ => congrArg v (lift_rows3 h b w a)

/-- The scaled row sums of the difference of two blocks, at sample b and column w:
    (sum over the 128 rows a of x0 (b, a, w) - x1 (b, a, w)) / 128. -/
theorem pay4_apply (x0 x1 : Vec Ideal S16x1x128x1024 .f32) (b : Fin 16) (w : Fin 1024) :
    k0_pay4 (F := Ideal) x0 x1 (ix2 b w)
      = (∑ a : Fin 128, (x0 (ix4 b (0 : Fin 1) a w) - x1 (ix4 b (0 : Fin 1) a w))) * c128 := by
  unfold k0_pay4
  refine congrArg (· * c128) ?_
  refine (sum_rows3 _ _ _ _ _ b w).trans ?_
  exact Finset.sum_congr rfl fun a _ => congrArg₂ (· - ·) (cast_drop_channel x0 _ b a w) (cast_drop_channel x1 _ b a w)

/-- One cell's term of a band, over any 16 x 1024 array v of scaled row sums: the 128 columns of cell j summed,
    scaled by 1/128, in absolute value. -/
theorem cell_term (v : FVec Ideal S16x1024 .f32) (off : ℕ) (hs : S16x1024.Slices ![0, off] S16x128)
    (acc : BitVec 32) (hr : S16x128.Reduces [(1 : Fin 2)] S16) (hφ : FKind.Formats .f32)
    (hacc : acc = FKind.add.neutral .f32 hφ) (hc : S16.ShapeCasts S16x1)
    (b : Fin 16) (j : Fin 8) (hoff : off = 128 * j.val) :
    absf (mulf (shapeCast S16x1 (multiReduction .add [(1 : Fin 2)] S16 (extractStridedSlice S16x128 ![0, off] v hs) acc hr hφ hacc) hc)
        (broadcast S16x1 (Scalar.ofBits .f32 0x3C000000#32))) (ix2 b (0 : Fin 1))
      = eabs ((∑ k : Fin 128, v (ix2 b (xIn j k))) * c128) := by
  have e : (mulf (shapeCast S16x1 (multiReduction .add [(1 : Fin 2)] S16 (extractStridedSlice S16x128 ![0, off] v hs) acc hr hφ hacc) hc)
        (broadcast S16x1 (Scalar.ofBits .f32 0x3C000000#32))) (ix2 b (0 : Fin 1))
      = (∑ k : Fin 128, v (ix2 b (xIn j k))) * c128 := by
    refine congrArg (· * c128) ?_
    refine (shapeCast_a_a1_apply _ hc b 0).trans ?_
    refine (multiReduction_add_rows _ acc hr hφ hacc b).trans ?_
    refine Finset.sum_congr rfl fun k _ => ?_
    refine (slice2_axis1_eq off v hs b k).trans ?_
    exact congrArg v (congrArg (ix2 b) (Fin.ext (by show off + k.val = 128 * j.val + k.val; rw [hoff])))
  unfold eabs
  exact congrArg₂ max e (congrArg Neg.neg e)

/-- Cell j's term of a band, from the two blocks: | (sum over the cell's columns k of (sum over the band's rows a of
    x0 - x1) / 128) / 128 |. -/
def cellTerm (x0 x1 : Vec Ideal S16x1x128x1024 .f32) (b : Fin 16) (j : Fin 8) : EReal :=
  eabs ((∑ k : Fin 128, (∑ a : Fin 128, (x0 (ix4 b (0 : Fin 1) a (xIn j k)) - x1 (ix4 b (0 : Fin 1) a (xIn j k)))) * c128) * c128)

theorem cell_term_blocks (x0 x1 : Vec Ideal S16x1x128x1024 .f32) (off : ℕ) (hs : S16x1024.Slices ![0, off] S16x128)
    (acc : BitVec 32) (hr : S16x128.Reduces [(1 : Fin 2)] S16) (hφ : FKind.Formats .f32)
    (hacc : acc = FKind.add.neutral .f32 hφ) (hc : S16.ShapeCasts S16x1)
    (b : Fin 16) (j : Fin 8) (hoff : off = 128 * j.val) :
    absf (mulf (shapeCast S16x1 (multiReduction .add [(1 : Fin 2)] S16 (extractStridedSlice S16x128 ![0, off] (k0_pay4 (F := Ideal) x0 x1) hs) acc hr hφ hacc) hc)
        (broadcast S16x1 (Scalar.ofBits .f32 0x3C000000#32))) (ix2 b (0 : Fin 1))
      = cellTerm x0 x1 b j :=
  (cell_term (k0_pay4 (F := Ideal) x0 x1) off hs acc hr hφ hacc hc b j hoff).trans (by
    unfold cellTerm; simp only [pay4_apply])

/-- The first four cells of a band, added up from zero in order. -/
theorem pay5_apply (x0 x1 : Vec Ideal S16x1x128x1024 .f32) (b : Fin 16) :
    k0_pay5 (F := Ideal) x0 x1 (ix2 b (0 : Fin 1))
      = (((Ideal.ofBits .f32 0x00000000#32 + cellTerm x0 x1 b 0) + cellTerm x0 x1 b 1) + cellTerm x0 x1 b 2) + cellTerm x0 x1 b 3 := by
  unfold k0_pay5
  exact congrArg₂ (· + ·) (congrArg₂ (· + ·) (congrArg₂ (· + ·) (congrArg₂ (· + ·) rfl
    (cell_term_blocks x0 x1 0 _ _ _ _ _ _ b 0 (by decide)))
    (cell_term_blocks x0 x1 128 _ _ _ _ _ _ b 1 (by decide)))
    (cell_term_blocks x0 x1 256 _ _ _ _ _ _ b 2 (by decide)))
    (cell_term_blocks x0 x1 384 _ _ _ _ _ _ b 3 (by decide))

/-- The accumulator a point leaves: the accumulator it found plus the first four cells plus the last four. -/
theorem pay2_apply (x0 x1 : Vec Ideal S16x1x128x1024 .f32) (xs : Vec Ideal S16x1 .f32) (b : Fin 16) :
    k0_pay2 (F := Ideal) (k0_pay4 x0 x1) (k0_pay5 x0 x1) (k0_pay6 x0 x1) xs (ix2 b (0 : Fin 1))
      = xs (ix2 b (0 : Fin 1)) + ((((k0_pay5 (F := Ideal) x0 x1 (ix2 b (0 : Fin 1)) + cellTerm x0 x1 b 4) + cellTerm x0 x1 b 5) + cellTerm x0 x1 b 6) + cellTerm x0 x1 b 7) := by
  unfold k0_pay2
  refine (congrFun (shapeCast_self _ _) _).trans ?_
  unfold k0_pay6
  exact congrArg₂ (· + ·) rfl (congrArg₂ (· + ·) (congrArg₂ (· + ·) (congrArg₂ (· + ·) (congrArg₂ (· + ·) rfl
    (cell_term_blocks x0 x1 512 _ _ _ _ _ _ b 4 (by decide)))
    (cell_term_blocks x0 x1 640 _ _ _ _ _ _ b 5 (by decide)))
    (cell_term_blocks x0 x1 768 _ _ _ _ _ _ b 6 (by decide)))
    (cell_term_blocks x0 x1 896 _ _ _ _ _ _ b 7 (by decide)))

/-- A band's contribution: the sum of its eight cells' terms (sums on the extended reals are commutative and
    associative, and the zero word is 0). -/
theorem band_apply (x0 x1 : Vec Ideal S16x1x128x1024 .f32) (xs : Vec Ideal S16x1 .f32) (b : Fin 16) :
    k0_pay2 (F := Ideal) (k0_pay4 x0 x1) (k0_pay5 x0 x1) (k0_pay6 x0 x1) xs (ix2 b (0 : Fin 1))
      = xs (ix2 b (0 : Fin 1)) + ∑ j : Fin 8, cellTerm x0 x1 b j := by
  rw [pay2_apply, pay5_apply, Fin.sum_univ_eight, Ideal.ofBits_zero_f32, zero_add]

/-- The block the first point of a half stores first is zero. -/
theorem pay1_apply (b : Fin 16) : k0_pay1 (F := Ideal) (ix2 b (0 : Fin 1)) = 0 := by
  unfold k0_pay1
  refine (congrFun (shapeCast_self _ _) _).trans ?_
  exact Ideal.ofBits_zero_f32

/-- The output block: the accumulator's entry of row b at every lane. -/
theorem pay3_apply (v : Vec Ideal S16x1 .f32) (b : Fin 16) (l : Fin 128) :
    k0_pay3 (F := Ideal) v (ix3 b (0 : Fin 1) l) = v (ix2 b (0 : Fin 1)) := by
  unfold k0_pay3
  refine (broadcastTo_apply _ _ (ix3 b (0 : Fin 1) l) (ix3 b (0 : Fin 1) (0 : Fin 1)) (fun a => by
    match a with
    | ⟨0, _⟩ => rfl
    | ⟨1, _⟩ => rfl
    | ⟨2, _⟩ => rfl)).trans ?_
  refine (congrFun (shapeCast_self _ _) _).trans ?_
  exact shapeCast_apply v _ _ _ (by
    rw [Shape.rowMajor_val_two, Shape.rowMajor_val_three]
    show b.val * 1 + 0 = (b.val * 1 + 0) * 1 + 0
    omega)

end Cert.KernelIdeal.KValue
end
-- ==== Proof.KAccum.lean ====
/-
  The accumulation across the grid.

  Point 8 q + p of the grid reads, of each image, the block of half q (samples 16 q .. 16 q + 15) and band p (rows
  128 p .. 128 p + 127, all columns).  So what the point adds to row b' of the accumulator is band p of sample
  16 q + b' — the sum over the band's eight cells of the absolute value of the cell's value, as the kernel computes
  it —, and by induction on p the accumulator after point 8 q + p holds the sum of bands 0 .. p of that sample.
-/
import proofs.«161667_j89696097010276_2_alg».proof.Proof.Gen.KernelIdeal.Frame
import proofs.«161667_j89696097010276_2_alg».proof.Proof.KPieces
import proofs.«161667_j89696097010276_2_alg».proof.Proof.KPayload
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.KValue

open Cert.KernelIdeal Cert.KernelIdeal.Gen Cert.Thumb

variable (m : (ℓ : Loc nD τ sig) → Buf (Elt Ideal) ℓ)

/-- The two images as the program finds them on core c. -/
abbrev fImg (c : Dev nD) : SImg.Idx → EReal := m ((c : Thread nD τ).loc main_arg0)
abbrev rImg (c : Dev nD) : SImg.Idx → EReal := m ((c : Thread nD τ).loc main_arg1)

/-- Sample b' of half q of the batch. -/
def smp (q : Fin 2) (b' : Fin 16) : Fin 32 := ⟨16 * q.val + b'.val, by omega⟩

/-- Where the two input windows are at each grid point: point 8 q + p reads half q, band p. -/
theorem in_idx : ∀ t : Fin cfg0.N,
    win0_0.index t (0 : Fin 4) = t.val / 8 ∧ win0_0.index t (1 : Fin 4) = 0 ∧ win0_0.index t (2 : Fin 4) = t.val % 8 ∧ win0_0.index t (3 : Fin 4) = 0
    ∧ win0_1.index t (0 : Fin 4) = t.val / 8 ∧ win0_1.index t (1 : Fin 4) = 0 ∧ win0_1.index t (2 : Fin 4) = t.val % 8 ∧ win0_1.index t (3 : Fin 4) = 0 :=
  (by decide +kernel : ∀ t : Fin grid0.N, _)

/-- The first image's block at point 8 q + p, at (b', 0, a, w), is the image at sample 16 q + b', row 128 p + a, column w. -/
theorem iblk0_apply (c : Dev nD) (t : Fin cfg0.N) (q : Fin 2) (p : Fin 8) (ht : t.val = 8 * q.val + p.val)
    (b' : Fin 16) (a : Fin 128) (w : Fin 1024) :
    (iblk m c 0 t : Vec Ideal S16x1x128x1024 .f32) (ix4 b' (0 : Fin 1) a w) = fImg m c (pix (smp q b') (yIn p a) w) := by
  obtain ⟨e0, e1, e2, e3, -⟩ := in_idx t
  unfold iblk
  rw [View.read_apply]
  show V m c main_arg0 _ = m ((c : Thread nD τ).loc main_arg0) _
  unfold V
  congr 1
  funext x
  apply Fin.ext
  match x with
  | ⟨0, _⟩ => show win0_0.index t (0 : Fin 4) * 16 + 1 * b'.val = 16 * q.val + b'.val; have := q.isLt; have := p.isLt; omega
  | ⟨1, _⟩ => show win0_0.index t (1 : Fin 4) * 1 + 1 * 0 = 0; omega
  | ⟨2, _⟩ => show win0_0.index t (2 : Fin 4) * 128 + 1 * a.val = 128 * p.val + a.val; have := q.isLt; have := p.isLt; omega
  | ⟨3, _⟩ => show win0_0.index t (3 : Fin 4) * 1024 + 1 * w.val = w.val; omega

/-- The same for the second image. -/
theorem iblk1_apply (c : Dev nD) (t : Fin cfg0.N) (q : Fin 2) (p : Fin 8) (ht : t.val = 8 * q.val + p.val)
    (b' : Fin 16) (a : Fin 128) (w : Fin 1024) :
    (iblk m c 1 t : Vec Ideal S16x1x128x1024 .f32) (ix4 b' (0 : Fin 1) a w) = rImg m c (pix (smp q b') (yIn p a) w) := by
  obtain ⟨-, -, -, -, e0, e1, e2, e3⟩ := in_idx t
  unfold iblk
  rw [View.read_apply]
  show V m c main_arg1 _ = m ((c : Thread nD τ).loc main_arg1) _
  unfold V
  congr 1
  funext x
  apply Fin.ext
  match x with
  | ⟨0, _⟩ => show win0_1.index t (0 : Fin 4) * 16 + 1 * b'.val = 16 * q.val + b'.val; have := q.isLt; have := p.isLt; omega
  | ⟨1, _⟩ => show win0_1.index t (1 : Fin 4) * 1 + 1 * 0 = 0; omega
  | ⟨2, _⟩ => show win0_1.index t (2 : Fin 4) * 128 + 1 * a.val = 128 * p.val + a.val; have := q.isLt; have := p.isLt; omega
  | ⟨3, _⟩ => show win0_1.index t (3 : Fin 4) * 1024 + 1 * w.val = w.val; omega

/-- A cell's term from the two blocks at point 8 q + p is the cell's term from the two images. -/
theorem cellTerm_global (f r : SImg.Idx → EReal) (x0 x1 : Vec Ideal S16x1x128x1024 .f32) (q : Fin 2) (p : Fin 8) (b' : Fin 16)
    (h0 : ∀ a w, x0 (ix4 b' (0 : Fin 1) a w) = f (pix (smp q b') (yIn p a) w))
    (h1 : ∀ a w, x1 (ix4 b' (0 : Fin 1) a w) = r (pix (smp q b') (yIn p a) w)) (j : Fin 8) :
    cellTerm x0 x1 b' j = eabs (kerCell f r (smp q b') p j) := by
  unfold cellTerm kerCell
  simp only [h0, h1]

/-- Band i of sample b: the sum of its eight cells' absolute values. -/
def bandVal (f r : SImg.Idx → EReal) (b : Fin 32) (i : Fin 8) : EReal := ∑ j : Fin 8, eabs (kerCell f r b i j)

/-- What a point adds: at point 8 q + p, to row b' of whatever accumulator it found, band p of sample 16 q + b'. -/
theorem step (c : Dev nD) (t : Fin cfg0.N) (q : Fin 2) (p : Fin 8) (ht : t.val = 8 * q.val + p.val)
    (xs : Vec Ideal S16x1 .f32) (b' : Fin 16) :
    k0_pay2 (F := Ideal) (k0_pay4 (iblk m c 0 t) (iblk m c 1 t)) (k0_pay5 (iblk m c 0 t) (iblk m c 1 t)) (k0_pay6 (iblk m c 0 t) (iblk m c 1 t)) xs (ix2 b' (0 : Fin 1))
      = xs (ix2 b' (0 : Fin 1)) + bandVal (fImg m c) (rImg m c) (smp q b') p :=
  (band_apply (iblk m c 0 t) (iblk m c 1 t) xs b').trans (congrArg (xs (ix2 b' (0 : Fin 1)) + ·)
    (Finset.sum_congr rfl fun j _ => cellTerm_global (fImg m c) (rImg m c) (iblk m c 0 t) (iblk m c 1 t) q p b'
      (iblk0_apply m c t q p ht b') (iblk1_apply m c t q p ht b') j))

/-- Sums of the first bands: only band 0; -/
theorem sum_upto_zero (g : Fin 8 → EReal) : (∑ i : Fin 8, if i.val ≤ 0 then g i else 0) = g 0 := by
  have : ∀ i : Fin 8, (if i.val ≤ 0 then g i else 0) = if i = 0 then g i else 0 := fun i => by
    have : i.val ≤ 0 ↔ i = 0 := ⟨fun h => Fin.ext (by show i.val = 0; omega), fun h => by rw [h]; exact Nat.le_refl _⟩
    simp only [this]
  simp only [this, Finset.sum_ite_eq', Finset.mem_univ, if_true]

/-- one more band; -/
theorem sum_upto_succ (g : Fin 8 → EReal) (p : ℕ) (hp : p + 1 < 8) :
    (∑ i : Fin 8, if i.val ≤ p + 1 then g i else 0) = (∑ i : Fin 8, if i.val ≤ p then g i else 0) + g ⟨p + 1, hp⟩ := by
  have : ∀ i : Fin 8, (if i.val ≤ p + 1 then g i else 0) = (if i.val ≤ p then g i else 0) + (if i = ⟨p + 1, hp⟩ then g i else 0) := fun i => by
    by_cases h1 : i.val ≤ p
    · have h2 : i ≠ ⟨p + 1, hp⟩ := fun h => by rw [h] at h1; exact absurd h1 (by show ¬ p + 1 ≤ p; omega)
      rw [if_pos h1, if_pos (Nat.le_succ_of_le h1), if_neg h2, add_zero]
    · by_cases h2 : i = ⟨p + 1, hp⟩
      · rw [if_neg h1, if_pos h2, if_pos (by rw [h2]), zero_add]
      · have h3 : ¬ i.val ≤ p + 1 := fun h => h2 (Fin.ext (by show i.val = p + 1; omega))
        rw [if_neg h1, if_neg h2, if_neg h3, add_zero]
  simp only [this, Finset.sum_add_distrib, Finset.sum_ite_eq', Finset.mem_univ, if_true]

/-- all eight. -/
theorem sum_upto_seven (g : Fin 8 → EReal) : (∑ i : Fin 8, if i.val ≤ 7 then g i else 0) = ∑ i : Fin 8, g i :=
  Finset.sum_congr rfl fun i _ => if_pos (by have := i.isLt; omega)

/-- The first point of a half leaves band p = 0 alone (the accumulator it starts from is the zero block); -/
theorem acc_first (c : Dev nD) (t : Fin cfg0.N) (h0 : t.val % 8 = 0) (h1 : ¬ t.val % 8 = 7)
    (q : Fin 2) (p : Fin 8) (ht : t.val = 8 * q.val + p.val) (b' : Fin 16) :
    (outsAt0 m c t.val t.isLt).2 (ix2 b' (0 : Fin 1)) = bandVal (fImg m c) (rImg m c) (smp q b') p := by
  refine (congrFun ((congrArg Prod.snd (outsAt0_A m c t h0 h1)).trans
    (sout_A c (grid0.coords t) (ms0_0 t) (hs0_0 t) (ms0_1 t) (hs0_1 t) (ms0_2 t) (hs0_2 t) scM0_0 (Memref.isWhole_whole _)
      ((hcond0_0 t).mpr h0) (fun h => h1 ((hcond0_1 t).mp h)) (iblk m c 0 t) (iblk m c 1 t))) (ix2 b' (0 : Fin 1))).trans ?_
  refine (step m c t q p ht (k0_pay1 (F := Ideal)) b').trans ?_
  rw [pay1_apply, zero_add]

/-- every later point adds its band to what the point before left. -/
theorem acc_next (c : Dev nD) (t : Fin cfg0.N) (h0 : ¬ t.val % 8 = 0)
    (q : Fin 2) (p : Fin 8) (ht : t.val = 8 * q.val + p.val) (b' : Fin 16) :
    (outsAt0 m c t.val t.isLt).2 (ix2 b' (0 : Fin 1))
      = (outsAt0 m c (t.val - 1) (Nat.lt_of_le_of_lt (Nat.sub_le _ _) t.isLt)).2 (ix2 b' (0 : Fin 1))
        + bandVal (fImg m c) (rImg m c) (smp q b') p := by
  by_cases h1 : t.val % 8 = 7
  · refine (congrFun ((congrArg Prod.snd (outsAt0_C m c t h0 h1)).trans
      (sout_C c (grid0.coords t) (ms0_0 t) (hs0_0 t) (ms0_1 t) (hs0_1 t) (ms0_2 t) (hs0_2 t) scM0_0 (Memref.isWhole_whole _)
        (fun h => h0 ((hcond0_0 t).mp h)) ((hcond0_1 t).mpr h1) (iblk m c 0 t) (iblk m c 1 t)
        (outsAt0 m c (t.val - 1) (Nat.lt_of_le_of_lt (Nat.sub_le _ _) t.isLt)).2)) (ix2 b' (0 : Fin 1))).trans ?_
    exact step m c t q p ht _ b'
  · refine (congrFun ((congrArg Prod.snd (outsAt0_B m c t h0 h1)).trans
      (sout_B c (grid0.coords t) (ms0_0 t) (hs0_0 t) (ms0_1 t) (hs0_1 t) (ms0_2 t) (hs0_2 t) scM0_0 (Memref.isWhole_whole _)
        (fun h => h0 ((hcond0_0 t).mp h)) (fun h => h1 ((hcond0_1 t).mp h)) (iblk m c 0 t) (iblk m c 1 t)
        (outsAt0 m c (t.val - 1) (Nat.lt_of_le_of_lt (Nat.sub_le _ _) t.isLt)).2)) (ix2 b' (0 : Fin 1))).trans ?_
    exact step m c t q p ht _ b'

/-- THE ACCUMULATION: after point 8 q + p, row b' of the carried accumulator holds bands 0 .. p of sample 16 q + b'. -/
theorem acc_inv (c : Dev nD) (q : Fin 2) (b' : Fin 16) : ∀ (p n : ℕ) (hn : n < cfg0.N) (hnp : n = 8 * q.val + p) (hp : p < 8),
    (outsAt0 m c n hn).2 (ix2 b' (0 : Fin 1)) = ∑ i : Fin 8, if i.val ≤ p then bandVal (fImg m c) (rImg m c) (smp q b') i else 0
  | 0, n, hn, hnp, hp => by
    refine (acc_first m c ⟨n, hn⟩ (by show n % 8 = 0; omega) (by show ¬ n % 8 = 7; omega) q ⟨0, hp⟩ hnp b').trans ?_
    rw [sum_upto_zero]
    rfl
  | p + 1, n, hn, hnp, hp => by
    have ih := acc_inv c q b' p (n - 1) (by omega) (by omega) (by omega)
    refine (acc_next m c ⟨n, hn⟩ (by show ¬ n % 8 = 0; omega) q ⟨p + 1, hp⟩ hnp b').trans ?_
    rw [sum_upto_succ _ p hp]
    exact congrArg (· + _) ih

end Cert.KernelIdeal.KValue
end
-- ==== Proof.KFinal.lean ====
/-
  From the accumulator to the program's result.

  After the last point of half q (point 8 q + 7) the accumulator holds all eight bands of each of the half's 16
  samples, that is the sample's distance, and that point copies it into the output block along the 128 lanes.  The
  two blocks written back (after points 7 and 15) tile the [32, 1, 128] output array, so the array ends holding the
  distance of sample b at (b, 0, l).  The lines after the region take lane 0 of every sample, sum over the batch and
  divide by 32.
-/
import proofs.«161667_j89696097010276_2_alg».proof.Proof.Gen.KernelIdeal.Frame
import proofs.«161667_j89696097010276_2_alg».proof.Proof.KAccum
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.KValue

open Cert.KernelIdeal Cert.KernelIdeal.Gen Cert.Thumb

variable (m : (ℓ : Loc nD τ sig) → Buf (Elt Ideal) ℓ) (ρ : Dev nD → PrngReg)

/-- A sample's distance, as the kernel computes the cells, is the sum of its eight bands. -/
theorem sample_eq_bands (f r : SImg.Idx → EReal) (b : Fin 32) :
    sample (kerCell f r) b = ∑ i : Fin 8, bandVal f r b i := rfl

/-- What the output array ends holding: at (b, 0, l), the distance of sample b, at every lane l. -/
def outG (c : Dev nD) : Buf (Elt Ideal) ((c : Thread nD τ).loc main_v0) :=
  fun y => sample (kerCell (fImg m c) (rImg m c)) (y 0)

/-- Where the output window is at each grid point: point 8 q + p holds the block of half q. -/
theorem out_idx : ∀ t : Fin cfg0.N,
    win0_2.index t (0 : Fin 3) = t.val / 8 ∧ win0_2.index t (1 : Fin 3) = 0 ∧ win0_2.index t (2 : Fin 3) = 0 :=
  (by decide +kernel : ∀ t : Fin grid0.N, _)

/-- The output block after the last point of half q: row b' holds the distance of sample 16 q + b' at every lane. -/
theorem out_last (c : Dev nD) (t : Fin cfg0.N) (q : Fin 2) (ht : t.val = 8 * q.val + 7)
    (b' : Fin 16) (u : Fin 1) (l : Fin 128) :
    ((outsAt0 m c t.val t.isLt).1 : Vec Ideal S16x1x128 .f32) (ix3 b' u l)
      = sample (kerCell (fImg m c) (rImg m c)) (smp q b') := by
  obtain rfl : u = 0 := Subsingleton.elim _ _
  have h0 : ¬ t.val % 8 = 0 := by omega
  have h1 : t.val % 8 = 7 := by omega
  have e := outsAt0_C m c t h0 h1
  refine (congrFun ((congrArg Prod.fst e).trans
    (out_C c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2)) (ix3 b' (0 : Fin 1) l)).trans ?_
  refine (pay3_apply _ b' l).trans ?_
  refine (congrFun ((congrArg Prod.snd e).trans
    (sout_C c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2)) (ix2 b' (0 : Fin 1))).symm.trans ?_
  rw [acc_inv m c q b' 7 t.val t.isLt ht (by omega), sum_upto_seven, sample_eq_bands]

/-- WHAT A FLUSHING POINT WRITES BACK is its block of outG. -/
theorem flushed_eq (c : Dev nD) (t : Fin cfg0.N) (hf : (cfg0.win 2).flush t = true) :
    (dats m 0 c).flushed 2 t = ((cfg0.win 2).blk t).view.read (Elt Ideal) (outG m c) := by
  have h7 : t.val % 8 = 7 := (flush0_2 t).mp hf
  have hN : t.val < 16 := lt_of_lt_of_eq t.isLt (show cfg0.N = 16 from N_0)
  obtain ⟨e0, e1, e2⟩ := out_idx t
  show (cfg0.win 2).cut (grid0.coords t) ((dats m 0 c).after 2 t) = _
  rw [after0_2]
  funext y
  show ((outsAt0 m c t.val t.isLt).1 : Vec Ideal S16x1x128 .f32) y = outG m c (((cfg0.win 2).blk t).view.emb y)
  refine (congrArg _ (eq_ix3 (n0 := 16) (n1 := 1) (n2 := 128) y)).trans ?_
  refine (out_last m c t ⟨t.val / 8, by omega⟩ (by show t.val = 8 * (t.val / 8) + 7; omega) (y 0) (y 1) (y 2)).trans ?_
  unfold outG
  refine congrArg (sample _) (Fin.ext ?_)
  show 16 * (t.val / 8) + (y 0).val = win0_2.index t (0 : Fin 3) * 16 + 1 * (y 0).val
  omega

/-- An index of the array is in point t's block iff each coordinate is in the block's range on its axis. -/
theorem mem_blk (t : Fin cfg0.N) (i : S32x1x128.Idx) :
    i ∈ ((cfg0.win 2).blk t).view.set ↔ ∀ a : Fin 3, win0_2.index t a * S16x1x128.size a ≤ (i a).val ∧ (i a).val < win0_2.index t a * S16x1x128.size a + S16x1x128.size a := by
  show i ∈ ((View.whole main_v0).slice (win0_2.rect t)).set ↔ _
  rw [View.set_slice_whole, Rect.mem_set_unit]
  exact Iff.rfl

/-- Every index of the output array lies in the block written back after the last point of its half. -/
theorem cover (i : S32x1x128.Idx) :
    ∃ t : Fin cfg0.N, (cfg0.win 2).flush t = true ∧ i ∈ ((cfg0.win 2).blk t).view.set := by
  have h0 : (i 0).val < 32 := (i 0).isLt
  have h1 : (i 1).val < 1 := (i 1).isLt
  have h2 : (i 2).val < 128 := (i 2).isLt
  have hlt : 8 * ((i 0).val / 16) + 7 < cfg0.N := by rw [show cfg0.N = 16 from N_0]; omega
  refine ⟨⟨8 * ((i 0).val / 16) + 7, hlt⟩, (flush0_2 _).mpr (by show (8 * ((i 0).val / 16) + 7) % 8 = 7; omega), ?_⟩
  obtain ⟨e0, e1, e2⟩ := out_idx ⟨8 * ((i 0).val / 16) + 7, hlt⟩
  have e0' : win0_2.index ⟨8 * ((i 0).val / 16) + 7, hlt⟩ (0 : Fin 3) = (8 * ((i 0).val / 16) + 7) / 8 := e0
  rw [mem_blk]
  intro a
  match a with
  | ⟨0, _⟩ => show win0_2.index ⟨8 * ((i 0).val / 16) + 7, hlt⟩ (0 : Fin 3) * 16 ≤ (i 0).val ∧ (i 0).val < win0_2.index ⟨8 * ((i 0).val / 16) + 7, hlt⟩ (0 : Fin 3) * 16 + 16; omega
  | ⟨1, _⟩ => show win0_2.index ⟨8 * ((i 0).val / 16) + 7, hlt⟩ (1 : Fin 3) * 1 ≤ (i 1).val ∧ (i 1).val < win0_2.index ⟨8 * ((i 0).val / 16) + 7, hlt⟩ (1 : Fin 3) * 1 + 1; omega
  | ⟨2, _⟩ => show win0_2.index ⟨8 * ((i 0).val / 16) + 7, hlt⟩ (2 : Fin 3) * 128 ≤ (i 2).val ∧ (i 2).val < win0_2.index ⟨8 * ((i 0).val / 16) + 7, hlt⟩ (2 : Fin 3) * 128 + 128; omega

/-- THE OUTPUT ARRAY after the region: the distance of sample b at (b, 0, l). -/
theorem final_out (c : Dev nD) : (dats m 0 c).arrAt 2 cfg0.N = outG m c :=
  (dats m 0 c).arrAt_eq_of_cover 2 (outG m c) (flushed_eq m c) cover

/-! ## The lines after the region: lane 0 of each sample, summed, divided by 32 -/

/-- A sum over the indices of a one-axis array is the sum over its coordinate. -/
theorem sum_idx1 {n : ℕ} (g : (⟨1, ![n]⟩ : Shape).Idx → EReal) : ∑ y, g y = ∑ b : Fin n, g (ix1 b) :=
  (Equiv.sum_comp (⟨fun y => y 0, fun b => ix1 b, fun y => (eq_ix1 y).symm, fun _ => rfl⟩ : (⟨1, ![n]⟩ : Shape).Idx ≃ Fin n).symm g).symm

/-- The lines after the region, of any output array whose entry (b, 0, 0) is g b: the mean of g over the batch. -/
theorem tail_apply (out : S32x1x128.Idx → EReal) (g : Fin 32 → EReal) (hg : ∀ b : Fin 32, out (ix3 b (0 : Fin 1) (0 : Fin 128)) = g b) :
    Host.divf (F := Ideal) (Host.reduceAdd (shapeCast S32 (extractStridedSlice S32x1x1 ![0, 0, 0] out slices_S32x1x128_S32x1x1_0_0_0) shapeCasts_S32x1x1_S32)
        (constant S_ .f32 0x00000000#32) reducesTo_S32_S_d0 h_S_) (constant S_ .f32 0x42000000#32)
      = fun _ => Ideal.div (∑ b : Fin 32, g b) c32 := by
  funext y
  show Ideal.div (Ideal.hostReduceAdd reducesTo_S32_S_d0 (shapeCast S32 (extractStridedSlice S32x1x1 ![0, 0, 0] out slices_S32x1x128_S32x1x1_0_0_0) shapeCasts_S32x1x1_S32)
      (Ideal.ofBits .f32 0x00000000#32) y) c32 = _
  refine congrArg (Ideal.div · c32) ?_
  rw [Ideal.hostReduceAdd_total reducesTo_S32_S_d0 (fun b => b.elim0), Ideal.ofBits_zero_f32, zero_add, sum_idx1]
  refine Finset.sum_congr rfl fun b _ => ?_
  refine (shapeCast_apply _ shapeCasts_S32x1x1_S32 (ix1 b) (ix3 b (0 : Fin 1) (0 : Fin 1)) (by
    rw [Shape.rowMajor_val_three, Shape.rowMajor_val_one]
    show (b.val * 1 + 0) * 1 + 0 = b.val
    omega)).trans ?_
  refine (extractStridedSlice_apply _ out slices_S32x1x128_S32x1x1_0_0_0 (ix3 b (0 : Fin 1) (0 : Fin 1)) (ix3 b (0 : Fin 1) (0 : Fin 128)) (fun a => by
    match a with
    | ⟨0, _⟩ => exact (Nat.zero_add _).symm
    | ⟨1, _⟩ => rfl
    | ⟨2, _⟩ => rfl)).trans ?_
  exact hg b

/-- The program's result: the mean over the batch of the samples' distances, cells as the kernel computes them. -/
theorem tail_eq (c : Dev nD) :
    Pipeline.afterTail₀ cfgs (dats m) 0 (V0 m) [hostOps1] c main_v4 = fun _ => result (kerCell (fImg m c) (rImg m c)) := by
  unfold Pipeline.afterTail₀
  show StableHlo.after hostOps1 _ (Proc.devRef .tc main_v4) = _
  after_results
  rw [(Pipeline.withArrays_arr spec0 launch0.win.arr_inj c _ _ 2).trans (final_out m c)]
  exact tail_apply (outG m c) (fun b => sample (kerCell (fImg m c) (rImg m c)) b) (fun b => rfl)

/-- The run, read: the result at the mean of the distances, the two images unchanged. -/
theorem run : θ_run defs (onTc (τ := τ) (main (F := Ideal))) ⟨m, fun _ => 0, ρ⟩ fun r => ∀ c : Dev nD,
      r.2.mem ((c.tc : Thread nD τ).loc main_v4) = (fun _ => result (kerCell (fImg m c) (rImg m c)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v4 (Pipeline.mem_restRefs_of main_v4 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue
end
-- ==== Proof.lean ====
/-
  The kernel and its reference compute the same thumbnail L1 distance.

  Both programs take two image batches f, r of shape [32, 1, 1024, 1024], cut every 1024 x 1024 plane into an 8 x 8
  grid of 128 x 128 cells, and return the mean over the 32 samples of
      sum over the 64 cells of | box average of f over the cell - box average of r over the cell |.
  The reference forms the two averages (a sum of 16384 pixels divided by 16384) and subtracts.  The kernel subtracts
  first, sums the 128 rows of the cell, multiplies by 1/128, sums the 128 columns, multiplies by 1/128 again, and
  adds the eight cells of a band into an accumulator carried over the eight bands of a sample.

  At the extended reals the two agree where every pixel is a real number, which the precondition states: sums and
  products of reals distribute, 1/128 * 1/128 = 1/16384, and finite sums may be taken in any order.  (At an infinite
  pixel they need not: the difference of two infinite averages is not the average of the differences.)

  The pieces: Spec (the one function, the law on the reals), Finite (the precondition read back), RefValue (the
  reference is that function), KPieces / KPayload / KAccum / KFinal (the kernel is that function: what each grid
  point leaves, the arithmetic at an index, the accumulation over a sample's bands, the output array and the lines
  after the region).
-/
import proofs.«161667_j89696097010276_2_alg».proof.Defs
import proofs.«161667_j89696097010276_2_alg».proof.Proof.Gen.Kernel
import proofs.«161667_j89696097010276_2_alg».proof.Proof.Gen.Kernel.Skeleton
import proofs.«161667_j89696097010276_2_alg».proof.Proof.Gen.Kernel.Launch
import proofs.«161667_j89696097010276_2_alg».proof.Proof.Gen.Kernel.Points
import proofs.«161667_j89696097010276_2_alg».proof.Proof.Gen.Kernel.Frame
import proofs.«161667_j89696097010276_2_alg».proof.Proof.Gen.KernelIdeal
import proofs.«161667_j89696097010276_2_alg».proof.Proof.Gen.KernelIdeal.Skeleton
import proofs.«161667_j89696097010276_2_alg».proof.Proof.Gen.KernelIdeal.Launch
import proofs.«161667_j89696097010276_2_alg».proof.Proof.Gen.KernelIdeal.Points
import proofs.«161667_j89696097010276_2_alg».proof.Proof.Gen.KernelIdeal.Frame
import proofs.«161667_j89696097010276_2_alg».proof.Proof.Gen.ReferenceIdeal
import proofs.«161667_j89696097010276_2_alg».proof.Proof.Gen.ReferenceIdeal.Run
import proofs.«161667_j89696097010276_2_alg».proof.Proof.Gen.ReferenceIdeal.Read
import proofs.«161667_j89696097010276_2_alg».proof.Proof.Gen.Pre_finite_inputs
import proofs.«161667_j89696097010276_2_alg».proof.Proof.Spec
import proofs.«161667_j89696097010276_2_alg».proof.Proof.Finite
import proofs.«161667_j89696097010276_2_alg».proof.Proof.RefValue
import proofs.«161667_j89696097010276_2_alg».proof.Proof.KFinal
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- So does the kernel read at the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of array operations: it runs, and its run leaves the arguments alone. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the mean over the batch of the samples' distances; the kernel's cell values and the
    reference's agree because every pixel is a real number. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (fun _ => Cert.Thumb.result (Cert.Thumb.kerCell (Cert.KernelIdeal.KValue.fImg m c) (Cert.KernelIdeal.KValue.rImg m c))),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.ref_result, (hagree c).1, (hagree c).2]
  have hr := Cert.Thumb.Finite.real_of_pre _ _ (hpre c)
  exact congrArg (fun (v : EReal) => fun _ => v) (Cert.Thumb.result_law _ _ hr.1 hr.2).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
